-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S64x32x256x64 : Shape := ⟨4, ![64, 32, 256, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S64x32x256x64 : S_.BroadcastsInDim S64x32x256x64 (![] : Fin 0 → Fin S64x32x256x64.rank)
  reducesTo_S64x32x256x64_S_d0_1_2_3 : S64x32x256x64.ReducesTo [0, 1, 2, 3] S_

variable [Facts]

def fn {F : FTy → Type} [FloatOps F] (main_arg0 : FVec F S128x64 .f32) (main_arg1 : FVec F S64x32x256x64 .f32) (main_arg2 : FVec F S64x32x256x64 .f32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S64x32x256x64 .f32 := Host.absf main_arg1
  let main_cst_0 : FVec F S_ .f32 := constant S_ .f32 0x7F800000#32
  let main_v5 : FVec F S64x32x256x64 .f32 := broadcastInDim S64x32x256x64 ![] bcast_S_S64x32x256x64 main_cst_0
  let main_v6 : IVec S64x32x256x64 1 := cmpf .olt main_v4 main_v5
  let main_c_1 : IVec S_ 1 := constantI S_ 1 1#1
  let main_v7 : IVec S_ 1 := (fun x v => Host.reduce IntOp.andi x v reducesTo_S64x32x256x64_S_d0_1_2_3 h_S_) main_v6 main_c_1
  let main_v8 : IVec S_ 1 := andi main_v3 main_v7
  let main_v9 : FVec F S64x32x256x64 .f32 := Host.absf main_arg2
  let main_cst_2 : FVec F S_ .f32 := constant S_ .f32 0x7F800000#32
  let main_v10 : FVec F S64x32x256x64 .f32 := broadcastInDim S64x32x256x64 ![] bcast_S_S64x32x256x64 main_cst_2
  let main_v11 : IVec S64x32x256x64 1 := cmpf .olt main_v9 main_v10
  let main_c_3 : IVec S_ 1 := constantI S_ 1 1#1
  let main_v12 : IVec S_ 1 := (fun x v => Host.reduce IntOp.andi x v reducesTo_S64x32x256x64_S_d0_1_2_3 h_S_) main_v11 main_c_3
  let main_v13 : IVec S_ 1 := andi main_v8 main_v12
  main_v13
-- ==== Kernel.lean ====
abbrev S128x64 : Shape := ⟨2, ![128, 64]⟩
abbrev S64x32x256x64 : Shape := ⟨4, ![64, 32, 256, 64]⟩
abbrev S2048x256x64 : Shape := ⟨3, ![2048, 256, 64]⟩
abbrev S2048x128x64 : Shape := ⟨3, ![2048, 128, 64]⟩
abbrev S32x256x64 : Shape := ⟨3, ![32, 256, 64]⟩
abbrev S32x128x64 : Shape := ⟨3, ![32, 128, 64]⟩
abbrev S1x128x64 : Shape := ⟨3, ![1, 128, 64]⟩
abbrev S32x128x256 : Shape := ⟨3, ![32, 128, 256]⟩
abbrev S32x128 : Shape := ⟨2, ![32, 128]⟩
abbrev S32x128x1 : Shape := ⟨3, ![32, 128, 1]⟩
abbrev S64x32x128x64 : Shape := ⟨4, ![64, 32, 128, 64]⟩

abbrev nBuf : Space → Nat
  | .hbm => 7
  | .vmem => 7
  | .smem => 0
  | _ => 0

abbrev bufTy : (tb : Table) → Fin (tcTables nBuf tb) → BufTy
  | .hbm, ⟨0, _⟩ => ⟨S128x64, .f32⟩
  | .hbm, ⟨1, _⟩ => ⟨S64x32x256x64, .f32⟩
  | .hbm, ⟨2, _⟩ => ⟨S64x32x256x64, .f32⟩
  | .hbm, ⟨3, _⟩ => ⟨S2048x256x64, .f32⟩
  | .hbm, ⟨4, _⟩ => ⟨S2048x256x64, .f32⟩
  | .hbm, ⟨5, _⟩ => ⟨S2048x128x64, .f32⟩
  | .hbm, ⟨6, _⟩ => ⟨S64x32x128x64, .f32⟩
  | .local _ .vmem, ⟨0, _⟩ => ⟨S128x64, .f32⟩
  | .local _ .vmem, ⟨1, _⟩ => ⟨S32x256x64, .f32⟩
  | .local _ .vmem, ⟨2, _⟩ => ⟨S32x256x64, .f32⟩
  | .local _ .vmem, ⟨3, _⟩ => ⟨S32x256x64, .f32⟩
  | .local _ .vmem, ⟨4, _⟩ => ⟨S32x256x64, .f32⟩
  | .local _ .vmem, ⟨5, _⟩ => ⟨S32x128x64, .f32⟩
  | .local _ .vmem, ⟨6, _⟩ => ⟨S32x128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x32x256x64_S2048x256x64 : S64x32x256x64.ShapeCasts S2048x256x64
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S32x256x64_S32x256x64_0_0_0 : ∀ a, (![0, 0, 0] : Fin 3 → Nat) a + S32x256x64.size a ≤ S32x256x64.size a
  h_S32x256x64 : 0 < S32x256x64.numel
  shapeCasts_S32x256x64_S32x256x64 : S32x256x64.ShapeCasts S32x256x64
  shapeCasts_S128x64_S1x128x64 : S128x64.ShapeCasts S1x128x64
  shapeCasts_S1x128x64_S1x128x64 : S1x128x64.ShapeCasts S1x128x64
  broadcasts_S1x128x64_S32x128x64 : S1x128x64.Broadcasts S32x128x64
  reduces_S32x128x256_S32x128 : S32x128x256.Reduces [2] S32x128
  shapeCasts_S32x128_S32x128x1 : S32x128.ShapeCasts S32x128x1
  broadcasts_S32x128x1_S32x128x256 : S32x128x1.Broadcasts S32x128x256
  inb_S32x128x64_S32x128x64_0_0_0 : ∀ a, (![0, 0, 0] : Fin 3 → Nat) a + S32x128x64.size a ≤ S32x128x64.size a
  h_S32x128x64 : 0 < S32x128x64.numel
  shapeCasts_S2048x128x64_S64x32x128x64 : S2048x128x64.ShapeCasts S64x32x128x64
  dot_S32x128x64_S32x256x64_S32x128x256_2_2_1_1_0_0_wf : DotDims.WF S32x128x64 S32x256x64 S32x128x256 [2] [2] [1] [1] [0] [0]
  dot_S32x128x256_S32x256x64_S32x128x64_2_1_1_2_0_0_wf : DotDims.WF S32x128x256 S32x256x64 S32x128x64 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S128x64.size a
  hwx0_0 : ∀ i : grid0.Coords, EltTy.bits .f32 = 32 ∨ (Rect.block (s := S128x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x64.size a ≤ S2048x256x64.size a
  hwx0_1 : ∀ i : grid0.Coords, EltTy.bits .f32 = 32 ∨ (Rect.block (s := S2048x256x64) S32x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x64.size a ≤ S2048x256x64.size a
  hwx0_2 : ∀ i : grid0.Coords, EltTy.bits .f32 = 32 ∨ (Rect.block (s := S2048x256x64) S32x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x64.size a ≤ S2048x128x64.size a
  hwx0_3 : ∀ i : grid0.Coords, EltTy.bits .f32 = 32 ∨ (Rect.block (s := S2048x128x64) S32x128x64.size (cc0_transform_3 i) (hinb0_3 i)).WholeWords (EltTy.packing .f32)

variable [Facts₀]

def dot_S32x128x64_S32x256x64_S32x128x256_2_2_1_1_0_0 : DotDims S32x128x64 S32x256x64 S32x128x256 where
  lhsContracting := [2]
  rhsContracting := [2]
  lhsNonContracting := [1]
  rhsNonContracting := [1]
  lhsBatch := [0]
  rhsBatch := [0]
  wf := dot_S32x128x64_S32x256x64_S32x128x256_2_2_1_1_0_0_wf
def dot_S32x128x256_S32x256x64_S32x128x64_2_1_1_2_0_0 : DotDims S32x128x256 S32x256x64 S32x128x64 where
  lhsContracting := [2]
  rhsContracting := [1]
  lhsNonContracting := [1]
  rhsNonContracting := [2]
  lhsBatch := [0]
  rhsBatch := [0]
  wf := dot_S32x128x256_S32x256x64_S32x128x64_2_1_1_2_0_0_wf

abbrev win0_0 : Pipeline.Window sig grid0 :=
  Pipeline.Window.ofSpec (Memref.whole main_arg0) S128x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64 : Shape := ⟨2, ![128, 64]⟩
abbrev S64x32x256x64 : Shape := ⟨4, ![64, 32, 256, 64]⟩
abbrev S64x32x256x128 : Shape := ⟨4, ![64, 32, 256, 128]⟩
abbrev S64x32x128x256 : Shape := ⟨4, ![64, 32, 128, 256]⟩
abbrev S_ : Shape := ⟨0, ![]⟩
abbrev S64x32x128 : Shape := ⟨3, ![64, 32, 128]⟩
abbrev S64x32x128x1 : Shape := ⟨4, ![64, 32, 128, 1]⟩
abbrev S64x32x128x64 : Shape := ⟨4, ![64, 32, 128, 64]⟩

abbrev nBuf : Space → Nat
  | .hbm => 30
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S64x32x256x64, .f32⟩
  | .hbm, ⟨2, _⟩ => ⟨S64x32x256x64, .f32⟩
  | .hbm, ⟨3, _⟩ => ⟨S64x32x256x128, .f32⟩
  | .hbm, ⟨4, _⟩ => ⟨S64x32x128x256, .f32⟩
  | .hbm, ⟨5, _⟩ => ⟨S_, .f32⟩
  | .hbm, ⟨6, _⟩ => ⟨S64x32x128x256, .f32⟩
  | .hbm, ⟨7, _⟩ => ⟨S64x32x128x256, .i1⟩
  | .hbm, ⟨8, _⟩ => ⟨S_, .f32⟩
  | .hbm, ⟨9, _⟩ => ⟨S_, .f32⟩
  | .hbm, ⟨10, _⟩ => ⟨S64x32x128x256, .f32⟩
  | .hbm, ⟨11, _⟩ => ⟨S64x32x128x256, .f32⟩
  | .hbm, ⟨12, _⟩ => ⟨S64x32x128x256, .f32⟩
  | .hbm, ⟨13, _⟩ => ⟨S64x32x128x256, .f32⟩
  | .hbm, ⟨14, _⟩ => ⟨S64x32x128x256, .f32⟩
  | .hbm, ⟨15, _⟩ => ⟨S_, .f32⟩
  | .hbm, ⟨16, _⟩ => ⟨S64x32x128, .f32⟩
  | .hbm, ⟨17, _⟩ => ⟨S_, .f32⟩
  | .hbm, ⟨18, _⟩ => ⟨S64x32x128, .f32⟩
  | .hbm, ⟨19, _⟩ => ⟨S64x32x128, .f32⟩
  | .hbm, ⟨20, _⟩ => ⟨S64x32x128x1, .f32⟩
  | .hbm, ⟨21, _⟩ => ⟨S64x32x128x256, .f32⟩
  | .hbm, ⟨22, _⟩ => ⟨S64x32x128x256, .f32⟩
  | .hbm, ⟨23, _⟩ => ⟨S64x32x128x256, .f32⟩
  | .hbm, ⟨24, _⟩ => ⟨S_, .f32⟩
  | .hbm, ⟨25, _⟩ => ⟨S64x32x128, .f32⟩
  | .hbm, ⟨26, _⟩ => ⟨S64x32x128x1, .f32⟩
  | .hbm, ⟨27, _⟩ => ⟨S64x32x128x256, .f32⟩
  | .hbm, ⟨28, _⟩ => ⟨S64x32x128x256, .f32⟩
  | .hbm, ⟨29, _⟩ => ⟨S64x32x128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  transposes_S64x32x256x128_S64x32x128x256_0_1_3_2 : S64x32x256x128.Transposes [0, 1, 3, 2] S64x32x128x256
  bcast_S_S64x32x128x256 : S_.BroadcastsInDim S64x32x128x256 (![] : Fin 0 → Fin S64x32x128x256.rank)
  reducesTo_S64x32x128x256_S64x32x128_d3 : S64x32x128x256.ReducesTo [3] S64x32x128
  h_S_ : 0 < S_.numel
  bcast_S_S64x32x128 : S_.BroadcastsInDim S64x32x128 (![] : Fin 0 → Fin S64x32x128.rank)
  bcast_S64x32x128_S64x32x128x1_0_1_2 : S64x32x128.BroadcastsInDim S64x32x128x1 (![0, 1, 2] : Fin 3 → Fin S64x32x128x1.rank)
  bcast_S64x32x128x1_S64x32x128x256_0_1_2_3 : S64x32x128x1.BroadcastsInDim S64x32x128x256 (![0, 1, 2, 3] : Fin 4 → Fin S64x32x128x256.rank)
  dot_S64x32x256x64_S128x64_S64x32x256x128_3_1_012_0_n_n_wf : DotDims.WF S64x32x256x64 S128x64 S64x32x256x128 [3] [1] [0, 1, 2] [0] [] []
  dot_S64x32x128x256_S64x32x256x64_S64x32x128x64_3_2_2_3_01_01_wf : DotDims.WF S64x32x128x256 S64x32x256x64 S64x32x128x64 [3] [2] [2] [3] [0, 1] [0, 1]

variable [Facts₀]

def dot_S64x32x256x64_S128x64_S64x32x256x128_3_1_012_0_n_n : DotDims S64x32x256x64 S128x64 S64x32x256x128 where
  lhsContracting := [3]
  rhsContracting := [1]
  lhsNonContracting := [0, 1, 2]
  rhsNonContracting := [0]
  lhsBatch := []
  rhsBatch := []
  wf := dot_S64x32x256x64_S128x64_S64x32x256x128_3_1_012_0_n_n_wf
def dot_S64x32x128x256_S64x32x256x64_S64x32x128x64_3_2_2_3_01_01 : DotDims S64x32x128x256 S64x32x256x64 S64x32x128x64 where
  lhsContracting := [3]
  rhsContracting := [2]
  lhsNonContracting := [2]
  rhsNonContracting := [3]
  lhsBatch := [0, 1]
  rhsBatch := [0, 1]
  wf := dot_S64x32x128x256_S64x32x256x64_S64x32x128x64_3_2_2_3_01_01_wf

class Facts : Prop extends Facts₀ where

variable [Facts]
-- ==== Proof.Spec.lean ====
/-
  Masked softmax attention on the extended reals, as one function of the three argument arrays.

  For a query matrix `q` (rows `s`, features `d`), one block of keys `k` and of values `v` (positions `t`):
  the score of row `s` against position `t` is `∑ d, q s d * k t d`; a score that is exactly zero is replaced by the
  mask value; each row of masked scores is turned into weights by the softmax taken against the row's maximum,
  `exp (x t - top) / ∑ u, exp (x u - top)`; the result at `(s, e)` is `∑ t, weight s t * v t e`.

  The three numbers the programs spell as words — zero, the mask value and the least element the maximum starts
  from — are kept as those words: only zero is ever evaluated.
-/
import Idealize.ShloMosaic.PureOps.Ideal.Laws
import Idealize.ShloMosaic.Lib.ValueIdx

noncomputable section

namespace Cert.SparseAttn

open Idealize.ShloMosaic Idealize.ShloMosaic.ValueIdx

/-- Zero, as the programs spell it. -/
abbrev zeroW : EReal := Ideal.ofBits .f32 0x00000000#32
/-- The value a vanishing score is replaced by. -/
abbrev maskW : EReal := Ideal.ofBits .f32 0xC7C35000#32
/-- The value a row's maximum is started from. -/
abbrev ninfW : EReal := Ideal.ofBits .f32 0xFF800000#32

theorem zeroW_eq : zeroW = 0 := Ideal.ofBits_zero_f32

/-- Choosing by the outcome of an equality test is choosing by the equality. -/
theorem select_cmp_oeq {α : Type} (p z : EReal) (a b : α) :
    Scalar.select (Ideal.cmp .oeq p z) a b = if p = z then a else b := by
  unfold Scalar.select Ideal.cmp
  by_cases h : p = z
  · simp [h]
  · simp [h]

/-- A score with the exact zero masked out. -/
def masked (p : EReal) : EReal := if p = zeroW then maskW else p

/-- Replacing a vanishing score by the mask value, leaving the others, is `masked`. -/
theorem masked_of_select (p : EReal) : Scalar.select (Ideal.cmp .oeq p zeroW) maskW p = masked p :=
  select_cmp_oeq p zeroW maskW p

/-- Adding to a score the mask value where it vanishes and zero elsewhere is `masked` too: `0 + c = c` and
    `p + 0 = p` hold for every extended real, so nothing is asked of `p`. -/
theorem masked_of_add (p : EReal) : p + Scalar.select (Ideal.cmp .oeq p zeroW) maskW zeroW = masked p := by
  rw [select_cmp_oeq]
  unfold masked
  by_cases h : p = zeroW
  · rw [if_pos h, if_pos h, h, zeroW_eq, zero_add]
  · rw [if_neg h, if_neg h, zeroW_eq, add_zero]

/-- The number a row is shifted by: its maximum, started from the least word and once more compared with it. -/
def rowTop {T : Nat} (row : Fin T → EReal) : EReal := max ninfW ((Finset.univ : Finset (Fin T)).fold max ninfW row)

/-- The softmax weight of position `t` in a row. -/
def softRow {T : Nat} (row : Fin T → EReal) (t : Fin T) : EReal :=
  Ideal.div (Ideal.exp (row t - rowTop row)) (∑ u : Fin T, Ideal.exp (row u - rowTop row))

/-- The masked scores of row `s`. -/
def scores {S D T : Nat} (q : Fin S → Fin D → EReal) (k : Fin T → Fin D → EReal) (s : Fin S) (t : Fin T) : EReal :=
  masked (∑ d : Fin D, q s d * k t d)

/-- Attention of one query matrix against one block of keys and values, at row `s` and output feature `e`. -/
def attn {S D T E : Nat} (q : Fin S → Fin D → EReal) (k : Fin T → Fin D → EReal) (v : Fin T → Fin E → EReal)
    (s : Fin S) (e : Fin E) : EReal :=
  ∑ t : Fin T, softRow (scores q k s) t * v t e

/-- The result array `[64, 32, 128, 64]`: at `(b, w, s, e)` the attention of the query against block `(b, w)` of the keys
    and values. -/
def G (Q : (⟨2, ![128, 64]⟩ : Shape).Idx → EReal) (K V : (⟨4, ![64, 32, 256, 64]⟩ : Shape).Idx → EReal) :
    (⟨4, ![64, 32, 128, 64]⟩ : Shape).Idx → EReal := fun i =>
  attn (fun s d => Q (ix2 s d)) (fun t d => K (ix4 (i 0) (i 1) t d)) (fun t e => V (ix4 (i 0) (i 1) t e)) (i 2) (i 3)

/-- The same with the two block coordinates merged into one of extent 2048: at `(n, s, e)` the attention against block
    `n` of keys and values laid out `[2048, 256, 64]`. -/
def Gflat (Q : (⟨2, ![128, 64]⟩ : Shape).Idx → EReal) (K V : (⟨3, ![2048, 256, 64]⟩ : Shape).Idx → EReal) :
    (⟨3, ![2048, 128, 64]⟩ : Shape).Idx → EReal := fun j =>
  attn (fun s d => Q (ix2 s d)) (fun t d => K (ix3 (j 0) t d)) (fun t e => V (ix3 (j 0) t e)) (j 1) (j 2)

end Cert.SparseAttn

end
-- ==== Proof.Products.lean ====
/-
  The kernel's two batched matrix products, read at an entry on the extended reals.

  Both run over a stack of 32 blocks (the first axis is a batch axis) and accumulate into zero. The first contracts the
  last axes of its operands: entry `(g, s, u)` is `∑ d, L (g, s, d) * R (g, u, d)` — a row of the left block against a row
  of the right one. The second contracts the left operand's last axis with the right operand's middle axis: entry
  `(g, s, e)` is `∑ u, L (g, s, u) * R (g, u, e)` — the ordinary product of the two blocks.
-/
import proofs.«143618_j61735859913075_1_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-- The product of rows against rows. -/
abbrev DRows : DotDims S32x128x64 S32x256x64 S32x128x256 := dot_S32x128x64_S32x256x64_S32x128x256_2_2_1_1_0_0
/-- The ordinary block product. -/
abbrev DProd : DotDims S32x128x256 S32x256x64 S32x128x64 := dot_S32x128x256_S32x256x64_S32x128x64_2_1_1_2_0_0

/-! ### Where each operand is read, axis by axis -/

theorem rows_lhs_0 (i : S32x128x256.Idx) (q : DRows.contr.Idx) : (DRows.lhsIdx i q 0).val = (i 0).val := by
  unfold DotDims.lhsIdx
  rw [dif_pos (show (0 : Fin S32x128x64.rank) ∈ DRows.lhsBatch by decide)]
  rfl
theorem rows_lhs_1 (i : S32x128x256.Idx) (q : DRows.contr.Idx) : (DRows.lhsIdx i q 1).val = (i 1).val := by
  unfold DotDims.lhsIdx
  rw [dif_neg (show ¬(1 : Fin S32x128x64.rank) ∈ DRows.lhsBatch by decide), dif_pos (show (1 : Fin S32x128x64.rank) ∈ DRows.lhsNonContracting by decide)]
  rfl
theorem rows_lhs_2 (i : S32x128x256.Idx) (q : DRows.contr.Idx) : (DRows.lhsIdx i q 2).val = (q ⟨0, by decide⟩).val :=
  DRows.lhsIdx_val_of_single rfl i q
theorem rows_rhs_0 (i : S32x128x256.Idx) (q : DRows.contr.Idx) : (DRows.rhsIdx i q 0).val = (i 0).val := by
  unfold DotDims.rhsIdx
  rw [dif_pos (show (0 : Fin S32x256x64.rank) ∈ DRows.rhsBatch by decide)]
  rfl
theorem rows_rhs_1 (i : S32x128x256.Idx) (q : DRows.contr.Idx) : (DRows.rhsIdx i q 1).val = (i 2).val := by
  unfold DotDims.rhsIdx
  rw [dif_neg (show ¬(1 : Fin S32x256x64.rank) ∈ DRows.rhsBatch by decide), dif_pos (show (1 : Fin S32x256x64.rank) ∈ DRows.rhsNonContracting by decide)]
  rfl
theorem rows_rhs_2 (i : S32x128x256.Idx) (q : DRows.contr.Idx) : (DRows.rhsIdx i q 2).val = (q ⟨0, by decide⟩).val :=
  DRows.rhsIdx_val_of_single rfl i q

theorem prod_lhs_0 (i : S32x128x64.Idx) (q : DProd.contr.Idx) : (DProd.lhsIdx i q 0).val = (i 0).val := by
  unfold DotDims.lhsIdx
  rw [dif_pos (show (0 : Fin S32x128x256.rank) ∈ DProd.lhsBatch by decide)]
  rfl
theorem prod_lhs_1 (i : S32x128x64.Idx) (q : DProd.contr.Idx) : (DProd.lhsIdx i q 1).val = (i 1).val := by
  unfold DotDims.lhsIdx
  rw [dif_neg (show ¬(1 : Fin S32x128x256.rank) ∈ DProd.lhsBatch by decide), dif_pos (show (1 : Fin S32x128x256.rank) ∈ DProd.lhsNonContracting by decide)]
  rfl
theorem prod_lhs_2 (i : S32x128x64.Idx) (q : DProd.contr.Idx) : (DProd.lhsIdx i q 2).val = (q ⟨0, by decide⟩).val :=
  DProd.lhsIdx_val_of_single rfl i q
theorem prod_rhs_0 (i : S32x128x64.Idx) (q : DProd.contr.Idx) : (DProd.rhsIdx i q 0).val = (i 0).val := by
  unfold DotDims.rhsIdx
  rw [dif_pos (show (0 : Fin S32x256x64.rank) ∈ DProd.rhsBatch by decide)]
  rfl
theorem prod_rhs_1 (i : S32x128x64.Idx) (q : DProd.contr.Idx) : (DProd.rhsIdx i q 1).val = (q ⟨0, by decide⟩).val :=
  DProd.rhsIdx_val_of_single rfl i q
theorem prod_rhs_2 (i : S32x128x64.Idx) (q : DProd.contr.Idx) : (DProd.rhsIdx i q 2).val = (i 2).val := by
  unfold DotDims.rhsIdx
  rw [dif_neg (show ¬(2 : Fin S32x256x64.rank) ∈ DProd.rhsBatch by decide), dif_pos (show (2 : Fin S32x256x64.rank) ∈ DProd.rhsNonContracting by decide)]
  rfl

/-! ### The two products at an entry -/

/-- Rows against rows: entry `(g, s, u)` is the sum over the feature `d` of `L (g, s, d) * R (g, u, d)`. -/
theorem rows_apply {φ₁ φ₂ : FTy} (L : FVec Ideal S32x128x64 φ₁) (R : FVec Ideal S32x256x64 φ₂) (g : Fin 32) (s : Fin 128) (u : Fin 256) :
    matmul DRows none L R (constant (F := Ideal) S32x128x256 .f32 0x00000000#32) (ix3 g s u)
      = ∑ d : Fin 64, L (ix3 g s d) * R (ix3 g u d) := by
  simp only [matmul]
  rw [Ideal.matmul_constant_zero_apply, ← Equiv.sum_comp (contrEquiv1 DRows 64 rfl rfl).symm]
  refine Finset.sum_congr rfl fun k _ => ?_
  have hk := contrEquiv1_symm_val DRows 64 rfl rfl k
  have el : DRows.lhsIdx (ix3 g s u) ((contrEquiv1 DRows 64 rfl rfl).symm k) = ix3 g s k := funext fun a => Fin.ext (by
    match a with
    | ⟨0, _⟩ => exact rows_lhs_0 _ _
    | ⟨1, _⟩ => exact rows_lhs_1 _ _
    | ⟨2, _⟩ => exact (rows_lhs_2 _ _).trans hk)
  have er : DRows.rhsIdx (ix3 g s u) ((contrEquiv1 DRows 64 rfl rfl).symm k) = ix3 g u k := funext fun a => Fin.ext (by
    match a with
    | ⟨0, _⟩ => exact rows_rhs_0 _ _
    | ⟨1, _⟩ => exact rows_rhs_1 _ _
    | ⟨2, _⟩ => exact (rows_rhs_2 _ _).trans hk)
  rw [el, er]

/-- The block product: entry `(g, s, e)` is the sum over the position `u` of `L (g, s, u) * R (g, u, e)`. -/
theorem prod_apply {φ₁ φ₂ : FTy} (L : FVec Ideal S32x128x256 φ₁) (R : FVec Ideal S32x256x64 φ₂) (g : Fin 32) (s : Fin 128) (e : Fin 64) :
    matmul DProd none L R (constant (F := Ideal) S32x128x64 .f32 0x00000000#32) (ix3 g s e)
      = ∑ u : Fin 256, L (ix3 g s u) * R (ix3 g u e) := by
  simp only [matmul]
  rw [Ideal.matmul_constant_zero_apply, ← Equiv.sum_comp (contrEquiv1 DProd 256 rfl rfl).symm]
  refine Finset.sum_congr rfl fun k _ => ?_
  have hk := contrEquiv1_symm_val DProd 256 rfl rfl k
  have el : DProd.lhsIdx (ix3 g s e) ((contrEquiv1 DProd 256 rfl rfl).symm k) = ix3 g s k := funext fun a => Fin.ext (by
    match a with
    | ⟨0, _⟩ => exact prod_lhs_0 _ _
    | ⟨1, _⟩ => exact prod_lhs_1 _ _
    | ⟨2, _⟩ => exact (prod_lhs_2 _ _).trans hk)
  have er : DProd.rhsIdx (ix3 g s e) ((contrEquiv1 DProd 256 rfl rfl).symm k) = ix3 g k e := funext fun a => Fin.ext (by
    match a with
    | ⟨0, _⟩ => exact prod_rhs_0 _ _
    | ⟨1, _⟩ => exact (prod_rhs_1 _ _).trans hk
    | ⟨2, _⟩ => exact prod_rhs_2 _ _)
  rw [el, er]

end Cert.KernelIdeal.Products

end
-- ==== Proof.LibKeepdims3.lean ====
/-
  Rank-3 "keepdims" layout steps read at an index, and the sum over the last axis of a rank-3 vector.

  A reduction of a stack of matrices over its last axis leaves one number per (batch, row). To combine two such
  families into a table indexed by (batch, row of the first, row of the second), a program re-lays the first as a
  column, [a, b] → [a, b, 1], and spreads it along a new last axis, [a, b, 1] → [a, b, c]; the second as a row,
  [a, c] → [a, 1, c], spread along a new middle axis, [a, 1, c] → [a, b, c]. Read at the index (p, q, r) of the table,
  the first chain gives the reduced value at (p, q) and the second the one at (p, r). Each step below is stated for
  arbitrary extents and any element type; the unit coordinate is an arbitrary `z : Fin 1`.

  `sqrt_apply`: the square root of a vector read at an index. `multiReduction_add_last_apply`: on the extended reals, the sum over the last axis read at (p, q) is the plain
  `Fin`-indexed sum of the entries (p, q, k).
-/
import Idealize.ShloMosaic.PureOps.Ideal.Laws
import Idealize.ShloMosaic.Lib.Pipeline.Value
import Idealize.ShloMosaic.Lib.ValueIdx

noncomputable section

namespace Cert.LibKeepdims3

open Idealize.ShloMosaic Idealize.ShloMosaic.ValueIdx

section Layout
variable {α : Type} {a b c : Nat}

/-- A family indexed by (p, q) re-laid as a column: the entry (p, q, z) of the cast is the entry (p, q). -/
theorem shapeCast_col_apply (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    rw [Shape.rowMajor_val_two, Shape.rowMajor_val_three]
    show p.val * b + q.val = (p.val * b + q.val) * 1 + z.val
    rw [Fin.val_eq_zero z, Nat.mul_one, Nat.add_zero])

/-- A family indexed by (p, r) re-laid as a row: the entry (p, z, r) of the cast is the entry (p, r). -/
theorem shapeCast_row_apply (x : (⟨2, ![a, c]⟩ : Shape).Idx → α)
    (h : (⟨2, ![a, c]⟩ : Shape).ShapeCasts ⟨3, ![a, 1, c]⟩) (p : Fin a) (r : Fin c) (z : Fin 1) :
    shapeCast ⟨3, ![a, 1, c]⟩ x h (ix3 p z r) = x (ix2 p r) :=
  shapeCast_apply x h _ _ (by
    rw [Shape.rowMajor_val_two, Shape.rowMajor_val_three]
    show p.val * c + r.val = (p.val * 1 + z.val) * c + r.val
    rw [Fin.val_eq_zero z, Nat.mul_one, Nat.add_zero])

/-- A column spread along a new last axis: the entry (p, q, r) is the column's entry (p, q, z). -/
theorem broadcastTo_col_apply (x : (⟨3, ![a, b, 1]⟩ : Shape).Idx → α)
    (h : (⟨3, ![a, b, 1]⟩ : Shape).Broadcasts ⟨3, ![a, b, c]⟩) (p : Fin a) (q : Fin b) (r : Fin c) (z : Fin 1) :
    broadcastTo ⟨3, ![a, b, c]⟩ x h (ix3 p q r) = x (ix3 p q z) :=
  broadcastTo_apply x h _ _ (fun ax => match ax with
    | ⟨0, _⟩ => by
        show p.val = if a = 1 then 0 else p.val
        have := p.isLt; split <;> omega
    | ⟨1, _⟩ => by
        show q.val = if b = 1 then 0 else q.val
        have := q.isLt; split <;> omega
    | ⟨2, _⟩ => by
        show z.val = if (1 : Nat) = 1 then 0 else r.val
        rw [if_pos rfl]; exact Fin.val_eq_zero z)

/-- A row spread along a new middle axis: the entry (p, q, r) is the row's entry (p, z, r). -/
theorem broadcastTo_row_apply (x : (⟨3, ![a, 1, c]⟩ : Shape).Idx → α)
    (h : (⟨3, ![a, 1, c]⟩ : Shape).Broadcasts ⟨3, ![a, b, c]⟩) (p : Fin a) (q : Fin b) (r : Fin c) (z : Fin 1) :
    broadcastTo ⟨3, ![a, b, c]⟩ x h (ix3 p q r) = x (ix3 p z r) :=
  broadcastTo_apply x h _ _ (fun ax => match ax with
    | ⟨0, _⟩ => by
        show p.val = if a = 1 then 0 else p.val
        have := p.isLt; split <;> omega
    | ⟨1, _⟩ => by
        show z.val = if (1 : Nat) = 1 then 0 else q.val
        rw [if_pos rfl]; exact Fin.val_eq_zero z
    | ⟨2, _⟩ => by
        show r.val = if c = 1 then 0 else r.val
        have := r.isLt; split <;> omega)

end Layout

/-- The square root of a vector of extended reals, read at an index, is the square root of the entry. -/
theorem sqrt_apply {s : Shape} {φ : FTy} (v : FVec Ideal s φ) (i : s.Idx) : sqrt v i = Ideal.sqrt (v i) := rfl

/-- On the extended reals the sum of a rank-3 vector over its last axis, read at (p, q), is the sum over `k` of the
    entries (p, q, k): no initial value is left (the accumulator word is the neutral one) and no order. -/
theorem multiReduction_add_last_apply {a b c : Nat} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- The same for single precision with the zero word as accumulator, the side conditions spelt as a printed program
    spells them (the accumulator's neutrality as the equation of the zero word with itself). -/
theorem multiReduction_add_last_f32_apply {a b c : Nat} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ k : Fin c, src (ix3 p q k) :=
  multiReduction_add_last_apply src 0x00000000#32 h hφ hacc p q

end Cert.LibKeepdims3

end
-- ==== Proof.LibStack3.lean ====
/-
  Two readings of rank-3 vectors at an index.

  `broadcastTo_stack_apply`: one matrix repeated along a new leading axis, [1, a, b] → [n, a, b]: every block of the
  stack is the matrix, so the entry (g, i, j) is the matrix's entry (z, i, j), whatever the block `g`; stated for any
  extents and any element type, the unit coordinate an arbitrary `z : Fin 1`.

  `multiReduction_max_last_apply`: on the extended reals, the maximum of a rank-3 vector over its last axis, read at
  (p, q), is the fold of `max`, from the accumulator's value, over the entries (p, q, k) — a row's maximum, in any order.
-/
import Idealize.ShloMosaic.PureOps.Ideal.Laws
import Idealize.ShloMosaic.Lib.Pipeline.Value
import Idealize.ShloMosaic.Lib.ValueIdx

noncomputable section

namespace Cert.LibStack3

open Idealize.ShloMosaic Idealize.ShloMosaic.ValueIdx

/-- A matrix repeated along a new leading axis: the entry (g, i, j) of the stack is the matrix's entry (z, i, j). -/
theorem broadcastTo_stack_apply {α : Type} {n a b : Nat} (x : (⟨3, ![1, a, b]⟩ : Shape).Idx → α)
    (h : (⟨3, ![1, a, b]⟩ : Shape).Broadcasts ⟨3, ![n, a, b]⟩) (g : Fin n) (i : Fin a) (j : Fin b) (z : Fin 1) :
    broadcastTo ⟨3, ![n, a, b]⟩ x h (ix3 g i j) = x (ix3 z i j) :=
  broadcastTo_apply x h _ _ (fun ax => match ax with
    | ⟨0, _⟩ => by
        show z.val = if (1 : Nat) = 1 then 0 else g.val
        rw [if_pos rfl]; exact Fin.val_eq_zero z
    | ⟨1, _⟩ => by
        show i.val = if a = 1 then 0 else i.val
        have := i.isLt; split <;> omega
    | ⟨2, _⟩ => by
        show j.val = if b = 1 then 0 else j.val
        have := j.isLt; split <;> omega)

/-- On the extended reals the maximum of a rank-3 vector over its last axis, read at (p, q), is the fold of `max` from the
    accumulator's value over the entries (p, q, k). -/
theorem multiReduction_max_last_apply {a b c : Nat} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (p : Fin a) (q : Fin b) :
    multiReduction .maximumf [2] ⟨2, ![a, b]⟩ src acc h hφ hacc (ix2 p q)
      = (Finset.univ : Finset (Fin c)).fold max (FloatOps.ofBits φ acc) (fun k => src (ix3 p q k)) :=
  (Ideal.multiReduction_maximumf_single src acc h hφ hacc (ix2 p q)).trans (by
    have e : (src ∘ h.lift (ix2 p q)) = fun k => src (ix3 p q k) :=
      funext fun k => congrArg src (funext fun ax => Fin.ext (by
        match ax with
        | ⟨0, _⟩ => rfl
        | ⟨1, _⟩ => rfl
        | ⟨2, _⟩ => rfl))
    rw [e]
    rfl)

/-- The same for single precision started from the word of the least element, the side conditions spelt as a printed
    program spells them (the accumulator's neutrality as the equation of that word with itself). -/
theorem multiReduction_max_last_f32_apply {a b c : Nat} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) :=
  multiReduction_max_last_apply src 0xFF800000#32 h hφ hacc p q

end Cert.LibStack3

end
-- ==== Proof.Payload.lean ====
/-
  What the kernel's body computes from its three loaded blocks, read at an entry.

  The body holds the whole query matrix `x0` ([128, 64]), a stack of 32 key blocks `x1` and of 32 value blocks `x2`
  ([32, 256, 64] each). It repeats the query once per block, multiplies rows against rows to get the scores
  ([32, 128, 256]), masks the exact zeros, shifts every row by its maximum, exponentiates, divides by the row's sum, and
  multiplies the weights with the value block. Changes of float format are the identity on the extended reals. So the
  entry (g, s, e) of the result is the attention of the query against key block `g` and value block `g`, at row `s` and
  feature `e` — the specification's `attn`.

  The body is first restated as a composition of named stages (equal to the printed payload by unfolding), and each
  stage is then read at an index.
-/
import proofs.«143618_j61735859913075_1_alg».proof.Proof.Gen.KernelIdeal.Skeleton
import proofs.«143618_j61735859913075_1_alg».proof.Proof.Spec
import proofs.«143618_j61735859913075_1_alg».proof.Proof.Products
import proofs.«143618_j61735859913075_1_alg».proof.Proof.LibKeepdims3
import proofs.«143618_j61735859913075_1_alg».proof.Proof.LibStack3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.KernelIdeal.Products
open Idealize.ShloMosaic Idealize.ShloMosaic.ValueIdx Cert.SparseAttn

/-! ### The stages -/

/-- The query, one copy per block of the stack. -/
def stackedQuery (x0 : Vec Ideal S128x64 .f32) : FVec Ideal S32x128x64 .bf16 :=
  broadcastTo S32x128x64 (shapeCast S1x128x64 (shapeCast S1x128x64 (truncf .bf16 x0 bitsLt_bf16_f32) shapeCasts_S128x64_S1x128x64) shapeCasts_S1x128x64_S1x128x64) broadcasts_S1x128x64_S32x128x64

/-- A stack of key or value blocks as the products take it. -/
def asOperand (x : Vec Ideal S32x256x64 .f32) : FVec Ideal S32x256x64 .bf16 :=
  truncf .bf16 (shapeCast S32x256x64 x shapeCasts_S32x256x64_S32x256x64) bitsLt_bf16_f32

/-- The scores: rows of the query against rows of each key block. -/
def rawScores (x0 : Vec Ideal S128x64 .f32) (x1 : Vec Ideal S32x256x64 .f32) : FVec Ideal S32x128x256 .f32 :=
  matmul DRows none (stackedQuery x0) (asOperand x1) (constant S32x128x256 .f32 0x00000000#32)

/-- The scores with the exact zeros replaced by the mask value. -/
def maskedScores (x0 : Vec Ideal S128x64 .f32) (x1 : Vec Ideal S32x256x64 .f32) : FVec Ideal S32x128x256 .f32 :=
  select (cmpf .oeq (rawScores x0 x1) (broadcast S32x128x256 (Scalar.ofBits .f32 0x00000000#32)))
    (broadcast S32x128x256 (Scalar.ofBits .f32 0xC7C35000#32)) (rawScores x0 x1)

/-- Each row's maximum, once more compared with the value it was started from. -/
def tops (y : FVec Ideal S32x128x256 .f32) : FVec Ideal S32x128 .f32 :=
  maximumf (broadcast S32x128 (Scalar.ofBits .f32 0xFF800000#32))
    (multiReduction .maximumf [2] S32x128 y 0xFF800000#32 reduces_S32x128x256_S32x128 (.inl rfl) rfl)

/-- One number per row spread along the row. -/
def spread (r : FVec Ideal S32x128 .f32) : FVec Ideal S32x128x256 .f32 :=
  broadcastTo S32x128x256 (shapeCast S32x128x1 r shapeCasts_S32x128_S32x128x1) broadcasts_S32x128x1_S32x128x256

/-- The exponentials of the rows shifted by their maxima. -/
def exps (y : FVec Ideal S32x128x256 .f32) : FVec Ideal S32x128x256 .f32 := exp (subf y (spread (tops y)))

/-- Each row's sum. -/
def sums (z : FVec Ideal S32x128x256 .f32) : FVec Ideal S32x128 .f32 :=
  multiReduction .add [2] S32x128 z 0x00000000#32 reduces_S32x128x256_S32x128 (.inl rfl) rfl

/-- The softmax weights. -/
def weights (y : FVec Ideal S32x128x256 .f32) : FVec Ideal S32x128x256 .f32 := divf (exps y) (spread (sums (exps y)))

/-- The weights times the value blocks. -/
def blockOut (w : FVec Ideal S32x128x256 .f32) (x2 : Vec Ideal S32x256x64 .f32) : FVec Ideal S32x128x64 .f32 :=
  matmul DProd none (truncf .bf16 w bitsLt_bf16_f32) (asOperand x2) (constant S32x128x64 .f32 0x00000000#32)

/-- The printed payload is the composition of the stages. -/
theorem pay_eq (x0 : Vec Ideal S128x64 .f32) (x1 x2 : Vec Ideal S32x256x64 .f32) :
    k0_pay1 (F := Ideal) x0 x1 x2 = blockOut (weights (maskedScores x0 x1)) x2 := rfl

/-! ### Each stage at an index -/

theorem stackedQuery_apply (x0 : Vec Ideal S128x64 .f32) (g : Fin 32) (s : Fin 128) (d : Fin 64) :
    stackedQuery x0 (ix3 g s d) = x0 (ix2 s d) := by
  unfold stackedQuery
  rw [Cert.LibStack3.broadcastTo_stack_apply _ _ g s d 0, shapeCast_self, shapeCast_ab_1ab_apply]
  rfl

theorem asOperand_apply (x : Vec Ideal S32x256x64 .f32) (i : S32x256x64.Idx) : asOperand x i = x i := by
  unfold asOperand
  rw [shapeCast_self]
  rfl

theorem rawScores_apply (x0 : Vec Ideal S128x64 .f32) (x1 : Vec Ideal S32x256x64 .f32) (g : Fin 32) (s : Fin 128) (u : Fin 256) :
    rawScores x0 x1 (ix3 g s u) = ∑ d : Fin 64, x0 (ix2 s d) * x1 (ix3 g u d) := by
  unfold rawScores
  rw [rows_apply]
  refine Finset.sum_congr rfl fun d _ => ?_
  rw [stackedQuery_apply, asOperand_apply]

theorem maskedScores_apply (x0 : Vec Ideal S128x64 .f32) (x1 : Vec Ideal S32x256x64 .f32) (g : Fin 32) (s : Fin 128) (u : Fin 256) :
    maskedScores x0 x1 (ix3 g s u) = scores (fun s d => x0 (ix2 s d)) (fun u d => x1 (ix3 g u d)) s u := by
  unfold maskedScores scores
  rw [select_apply, cmpf_apply, broadcast_apply, broadcast_apply, rawScores_apply]
  exact masked_of_select _

theorem tops_apply (y : FVec Ideal S32x128x256 .f32) (g : Fin 32) (s : Fin 128) :
    tops y (ix2 g s) = rowTop (fun u : Fin 256 => y (ix3 g s u)) := by
  unfold tops rowTop
  rw [maximumf_apply, broadcast_apply]
  exact congrArg (max ninfW) (Cert.LibStack3.multiReduction_max_last_f32_apply y _ _ _ g s)

theorem spread_apply (r : FVec Ideal S32x128 .f32) (g : Fin 32) (s : Fin 128) (u : Fin 256) :
    spread r (ix3 g s u) = r (ix2 g s) :=
  (Cert.LibKeepdims3.broadcastTo_col_apply _ _ g s u 0).trans (Cert.LibKeepdims3.shapeCast_col_apply _ _ g s 0)

theorem exps_apply (y : FVec Ideal S32x128x256 .f32) (g : Fin 32) (s : Fin 128) (u : Fin 256) :
    exps y (ix3 g s u) = Ideal.exp (y (ix3 g s u) - rowTop (fun u' : Fin 256 => y (ix3 g s u'))) := by
  unfold exps
  show Ideal.exp (subf y (spread (tops y)) (ix3 g s u)) = _
  rw [subf_apply, spread_apply, tops_apply]

theorem sums_apply (z : FVec Ideal S32x128x256 .f32) (g : Fin 32) (s : Fin 128) :
    sums z (ix2 g s) = ∑ u : Fin 256, z (ix3 g s u) :=
  Cert.LibKeepdims3.multiReduction_add_last_f32_apply z _ _ _ g s

theorem weights_apply (y : FVec Ideal S32x128x256 .f32) (g : Fin 32) (s : Fin 128) (u : Fin 256) :
    weights y (ix3 g s u) = softRow (fun u' : Fin 256 => y (ix3 g s u')) u := by
  unfold weights softRow
  rw [divf_apply, exps_apply, spread_apply, sums_apply]
  refine congrArg (Ideal.div _) (Finset.sum_congr rfl fun u' _ => ?_)
  rw [exps_apply]

theorem blockOut_apply (w : FVec Ideal S32x128x256 .f32) (x2 : Vec Ideal S32x256x64 .f32) (g : Fin 32) (s : Fin 128) (e : Fin 64) :
    blockOut w x2 (ix3 g s e) = ∑ u : Fin 256, w (ix3 g s u) * x2 (ix3 g u e) := by
  unfold blockOut
  rw [prod_apply]
  refine Finset.sum_congr rfl fun u _ => ?_
  rw [asOperand_apply]
  rfl

/-- THE BODY AT AN ENTRY: the attention of the query against key block `g` and value block `g`. -/
theorem pay_apply (x0 : Vec Ideal S128x64 .f32) (x1 x2 : Vec Ideal S32x256x64 .f32) (g : Fin 32) (s : Fin 128) (e : Fin 64) :
    k0_pay1 (F := Ideal) x0 x1 x2 (ix3 g s e)
      = attn (fun s d => x0 (ix2 s d)) (fun u d => x1 (ix3 g u d)) (fun u e => x2 (ix3 g u e)) s e := by
  rw [pay_eq, blockOut_apply]
  unfold attn
  refine Finset.sum_congr rfl fun u _ => ?_
  rw [weights_apply]
  have hrow : (fun u' : Fin 256 => maskedScores x0 x1 (ix3 g s u'))
      = scores (fun s d => x0 (ix2 s d)) (fun u d => x1 (ix3 g u d)) s :=
    funext fun u' => maskedScores_apply x0 x1 g s u'
  rw [hrow]

end Cert.KernelIdeal.Payload

end
-- ==== Proof.Blocks.lean ====
/-
  From what each grid point writes back to the whole result array.

  The grid has 64 points; point `t` is handed the whole query, rows `32 t … 32 t + 31` of the merged keys and values, and
  writes back rows `32 t … 32 t + 31` of the result. By the body's reading at an entry, what it writes at `(g, s, e)` is the
  attention against block `32 t + g`: the block of ONE function of the arrays, `Gflat`. The 64 blocks tile the
  `[2048, 128, 64]` array (row `r` lies in block `r / 32`), so after the region the array holds `Gflat`.
-/
import proofs.«143618_j61735859913075_1_alg».proof.Proof.Gen.KernelIdeal.Frame
import proofs.«143618_j61735859913075_1_alg».proof.Proof.Payload
import Idealize.ShloMosaic.Lib.Pipeline.Value

set_option maxRecDepth 16384

noncomputable section

namespace Cert.KernelIdeal.Blocks

open Cert.KernelIdeal Cert.KernelIdeal.Gen Cert.SparseAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the query's block never moves; the keys', the values' and the
    result's block at point `t` is the `t`-th along the first axis. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- One point, over any blocks: if the loaded query is `Q`, and the loaded key and value blocks are block `n` of `K` and
    `W`, the body's result at `(g, s, e)` is `Gflat Q K W` at `(n, s, e)`. -/
theorem point_eq (x0 : Vec Ideal S128x64 .f32) (x1 x2 : Vec Ideal S32x256x64 .f32)
    (Q : S128x64.Idx → EReal) (K W : S2048x256x64.Idx → EReal) (n : Fin 2048) (g : Fin 32) (s : Fin 128) (e : Fin 64)
    (h0 : ∀ (s : Fin 128) (d : Fin 64), x0 (ix2 s d) = Q (ix2 s d))
    (h1 : ∀ (u : Fin 256) (d : Fin 64), x1 (ix3 g u d) = K (ix3 n u d))
    (h2 : ∀ (u : Fin 256) (d : Fin 64), x2 (ix3 g u d) = W (ix3 n u d)) :
    k0_pay1 (F := Ideal) x0 x1 x2 (ix3 g s e) = Gflat Q K W (ix3 n s e) := by
  have e0 : (fun (s : Fin 128) (d : Fin 64) => x0 (ix2 s d)) = fun s d => Q (ix2 s d) :=
    funext fun s => funext fun d => h0 s d
  have e1 : (fun (u : Fin 256) (d : Fin 64) => x1 (ix3 g u d)) = fun u d => K (ix3 n u d) :=
    funext fun u => funext fun d => h1 u d
  have e2 : (fun (u : Fin 256) (d : Fin 64) => x2 (ix3 g u d)) = fun u d => W (ix3 n u d) :=
    funext fun u => funext fun d => h2 u d
  rw [Payload.pay_apply, e0, e1, e2]
  rfl

/-- WHAT POINT `t` WRITES BACK is block `t` of `Gflat` of the arrays as the region finds them. -/
theorem flushed_eq (c : Dev nD) (t : Fin cfg0.N) :
    (dats m 0 c).flushed 3 t = ((cfg0.win 3).blk t).view.read (Elt Ideal)
      (Gflat (V m c main_arg0) (V m c main_v0) (V m c main_v1)) := by
  show (cfg0.win 3).cut (grid0.coords t) ((dats m 0 c).after 3 t) = _
  rw [after0_3]
  unfold out0_3
  rw [View.canon_unit_zero hz3]
  simp only [View.ld_unit_zero (S := S128x64) hz2, View.ld_unit_zero (S := S32x256x64) hz3]
  obtain ⟨a0, a1, b0, b1, b2, c0, c1, c2, d0, d1, d2⟩ := idx_facts t
  have ht : t.val < 64 := lt_of_lt_of_eq t.isLt N_0
  refine funext fun (j : S32x128x64.Idx) => ?_
  obtain ⟨g, s, e, rfl⟩ : ∃ (g : Fin 32) (s : Fin 128) (e : Fin 64), j = ix3 g s e := ⟨j 0, j 1, j 2, eq_ix3 j⟩
  have hn : t.val * 32 + g.val < 2048 := by have := g.isLt; omega
  show k0_pay1 (F := Ideal) (iblk m c 0 t) (iblk m c 1 t) (iblk m c 2 t) (ix3 g s e)
    = Gflat (V m c main_arg0) (V m c main_v0) (V m c main_v1) (((cfg0.win 3).blk t).view.emb (ix3 g s e))
  have hemb : ((cfg0.win 3).blk t).view.emb (ix3 g s e) = ix3 (⟨t.val * 32 + g.val, hn⟩ : Fin 2048) s e := by
    funext a; apply Fin.ext
    match a with
    | ⟨0, _⟩ => show win0_3.index t (0 : Fin 3) * 32 + 1 * g.val = t.val * 32 + g.val; rw [d0]; omega
    | ⟨1, _⟩ => show win0_3.index t (1 : Fin 3) * 128 + 1 * s.val = s.val; rw [d1]; omega
    | ⟨2, _⟩ => show win0_3.index t (2 : Fin 3) * 64 + 1 * e.val = e.val; rw [d2]; omega
  rw [hemb]
  refine point_eq (iblk m c 0 t) (iblk m c 1 t) (iblk m c 2 t) _ _ _ ⟨t.val * 32 + g.val, hn⟩ g s e ?_ ?_ ?_
  · intro s d
    show V m c main_arg0 (((cfg0.win 0).blk t).view.emb (ix2 s d)) = V m c main_arg0 (ix2 s d)
    refine congrArg _ (funext fun a => Fin.ext ?_)
    match a with
    | ⟨0, _⟩ => show win0_0.index t (0 : Fin 2) * 128 + 1 * s.val = s.val; rw [a0]; omega
    | ⟨1, _⟩ => show win0_0.index t (1 : Fin 2) * 64 + 1 * d.val = d.val; rw [a1]; omega
  · intro u d
    show V m c main_v0 (((cfg0.win 1).blk t).view.emb (ix3 g u d)) = V m c main_v0 (ix3 (⟨t.val * 32 + g.val, hn⟩ : Fin 2048) u d)
    refine congrArg _ (funext fun a => Fin.ext ?_)
    match a with
    | ⟨0, _⟩ => show win0_1.index t (0 : Fin 3) * 32 + 1 * g.val = t.val * 32 + g.val; rw [b0]; omega
    | ⟨1, _⟩ => show win0_1.index t (1 : Fin 3) * 256 + 1 * u.val = u.val; rw [b1]; omega
    | ⟨2, _⟩ => show win0_1.index t (2 : Fin 3) * 64 + 1 * d.val = d.val; rw [b2]; omega
  · intro u d
    show V m c main_v1 (((cfg0.win 2).blk t).view.emb (ix3 g u d)) = V m c main_v1 (ix3 (⟨t.val * 32 + g.val, hn⟩ : Fin 2048) u d)
    refine congrArg _ (funext fun a => Fin.ext ?_)
    match a with
    | ⟨0, _⟩ => show win0_2.index t (0 : Fin 3) * 32 + 1 * g.val = t.val * 32 + g.val; rw [c0]; omega
    | ⟨1, _⟩ => show win0_2.index t (1 : Fin 3) * 256 + 1 * u.val = u.val; rw [c1]; omega
    | ⟨2, _⟩ => show win0_2.index t (2 : Fin 3) * 64 + 1 * d.val = d.val; rw [c2]; omega

/-- An index of the result array is in point `t`'s block iff each coordinate is in the block's range on its axis. -/
theorem mem_blk (t : Fin cfg0.N) (i : S2048x128x64.Idx) :
    i ∈ ((cfg0.win 3).blk t).view.set ↔ ∀ a : Fin 3, win0_3.index t a * S32x128x64.size a ≤ (i a).val
      ∧ (i a).val < win0_3.index t a * S32x128x64.size a + S32x128x64.size a := by
  show i ∈ ((View.whole main_v2).slice (win0_3.rect t)).set ↔ _
  rw [View.set_slice_whole, Rect.mem_set_unit]
  exact Iff.rfl

/-- Every index of the result array lies in some point's block: row `r` in block `r / 32`. -/
theorem cover (i : S2048x128x64.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  have hi2 : (i 2).val < 64 := (i 2).isLt
  have hlt : (i 0).val / 32 < cfg0.N := lt_of_lt_of_eq (by omega : (i 0).val / 32 < 64) N_0.symm
  obtain ⟨-, -, -, -, -, -, -, -, d0, d1, d2⟩ := idx_facts ⟨(i 0).val / 32, hlt⟩
  refine ⟨⟨(i 0).val / 32, hlt⟩, flush0_3 _, ?_⟩
  rw [mem_blk]
  intro a
  match a with
  | ⟨0, _⟩ =>
    show win0_3.index ⟨(i 0).val / 32, hlt⟩ (0 : Fin 3) * 32 ≤ (i 0).val
      ∧ (i 0).val < win0_3.index ⟨(i 0).val / 32, hlt⟩ (0 : Fin 3) * 32 + 32
    rw [d0]; show (i 0).val / 32 * 32 ≤ (i 0).val ∧ (i 0).val < (i 0).val / 32 * 32 + 32; omega
  | ⟨1, _⟩ =>
    show win0_3.index ⟨(i 0).val / 32, hlt⟩ (1 : Fin 3) * 128 ≤ (i 1).val
      ∧ (i 1).val < win0_3.index ⟨(i 0).val / 32, hlt⟩ (1 : Fin 3) * 128 + 128
    rw [d1]; omega
  | ⟨2, _⟩ =>
    show win0_3.index ⟨(i 0).val / 32, hlt⟩ (2 : Fin 3) * 64 ≤ (i 2).val
      ∧ (i 2).val < win0_3.index ⟨(i 0).val / 32, hlt⟩ (2 : Fin 3) * 64 + 64
    rw [d2]; omega

/-- THE RESULT ARRAY after the region: `Gflat` of the query and of the merged keys and values as the region finds them. -/
theorem final (c : Dev nD) :
    (dats m 0 c).arrAt 3 cfg0.N = Gflat (V m c main_arg0) (V m c main_v0) (V m c main_v1) :=
  (dats m 0 c).arrAt_eq_of_cover 3 _ (fun t _ => flushed_eq m c t) cover

end Cert.KernelIdeal.Blocks

end
-- ==== Proof.HostSide.lean ====
/-
  The host operations around the region.

  Before the region the program re-lays the keys and the values, `[64, 32, 256, 64] → [2048, 256, 64]`: what the region
  finds in those two buffers is the reshape of the launch contents. After the region it re-lays the result,
  `[2048, 128, 64] → [64, 32, 128, 64]`: the returned buffer holds the reshape of what the region left in the result array.
-/
import proofs.«143618_j61735859913075_1_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The merged keys as the region finds them. -/
theorem V_keys (c : Dev nD) :
    (V m c main_v0 : S2048x256x64.Idx → EReal)
      = shapeCast S2048x256x64 (m ((c : Thread nD τ).loc main_arg1) : S64x32x256x64.Idx → EReal) shapeCasts_S64x32x256x64_S2048x256x64 := by
  show StableHlo.after hostOps0 (fun b => m (c, b)) (Proc.devRef .tc main_v0) = _
  after_results
  rfl

/-- The merged values as the region finds them. -/
theorem V_values (c : Dev nD) :
    (V m c main_v1 : S2048x256x64.Idx → EReal)
      = shapeCast S2048x256x64 (m ((c : Thread nD τ).loc main_arg2) : S64x32x256x64.Idx → EReal) shapeCasts_S64x32x256x64_S2048x256x64 := by
  show StableHlo.after hostOps0 (fun b => m (c, b)) (Proc.devRef .tc main_v1) = _
  after_results
  rfl

/-- The returned buffer: the result array the region left, split back into `[64, 32, 128, 64]`. -/
theorem tail_eq (c : Dev nD) :
    (Pipeline.afterTail₀ cfgs (dats m) 0 (V0 m) [hostOps1] c main_v3 : S64x32x128x64.Idx → EReal)
      = shapeCast S64x32x128x64 ((dats m 0 c).arrAt 3 cfg0.N : S2048x128x64.Idx → EReal) shapeCasts_S2048x128x64_S64x32x128x64 := by
  unfold Pipeline.afterTail₀
  show StableHlo.after hostOps1 _ (Proc.devRef .tc main_v3) = _
  after_results
  funext i
  show shapeCast S64x32x128x64 (Pipeline.withArrays spec0 c (V0 m c) (fun w => (dats m 0 c).arrAt w cfg0.N)
      (Proc.devRef .tc main_v2)) shapeCasts_S2048x128x64_S64x32x128x64 i = _
  rw [show Pipeline.withArrays spec0 c (V0 m c) (fun w => (dats m 0 c).arrAt w cfg0.N) (Proc.devRef .tc main_v2)
      = (dats m 0 c).arrAt 3 cfg0.N from Pipeline.withArrays_arr spec0 launch0.win.arr_inj c _ _ 3]

end Cert.KernelIdeal.HostSide

end
-- ==== Proof.LibMergeAxes.lean ====
/-
  A reshape that merges the two leading axes of a rank-4 array, and the reshape that splits them again, read at an index.

  A `[a, b, c, d]` array re-laid as `[n, c, d]` with `n = a · b` keeps the row-major order, so entry `(g, k, l)` of the result with
  `g = i · b + j` is entry `(i, j, k, l)` of the operand; and the other way round. Stated at any element type and any extents;
  the merged coordinate is given by its value (`g = i · b + j`), so a caller never has to build it from a product.
-/
import Idealize.ShloMosaic.Lib.Pipeline.Value
import Idealize.ShloMosaic.Lib.ValueIdx

namespace Cert.MergeAxes

open Idealize.ShloMosaic Idealize.ShloMosaic.ValueIdx

variable {α : Type}

/-- `[a, b, c, d] → [n, c, d]`: the merged array at `(g, k, l)`, `g = i · b + j`, is the operand at `(i, j, k, l)`. -/
theorem shapeCast_merge_apply {a b c d n : ℕ} (x : (⟨4, ![a, b, c, d]⟩ : Shape).Idx → α)
    (h : (⟨4, ![a, b, c, d]⟩ : Shape).ShapeCasts ⟨3, ![n, c, d]⟩)
    (i : Fin a) (j : Fin b) (k : Fin c) (l : Fin d) (g : Fin n) (hg : g.val = i.val * b + j.val) :
    shapeCast ⟨3, ![n, c, d]⟩ x h (ix3 g k l) = x (ix4 i j k l) :=
  shapeCast_apply x h _ _ (by
    rw [Shape.rowMajor_val_four, Shape.rowMajor_val_three]
    show ((i.val * b + j.val) * c + k.val) * d + l.val = (g.val * c + k.val) * d + l.val
    rw [hg])

/-- `[n, c, d] → [a, b, c, d]`: the split array at `(i, j, k, l)` is the operand at `(g, k, l)`, `g = i · b + j`. -/
theorem shapeCast_split_apply {a b c d n : ℕ} (x : (⟨3, ![n, c, d]⟩ : Shape).Idx → α)
    (h : (⟨3, ![n, c, d]⟩ : Shape).ShapeCasts ⟨4, ![a, b, c, d]⟩)
    (i : Fin a) (j : Fin b) (k : Fin c) (l : Fin d) (g : Fin n) (hg : g.val = i.val * b + j.val) :
    shapeCast ⟨4, ![a, b, c, d]⟩ x h (ix4 i j k l) = x (ix3 g k l) :=
  shapeCast_apply x h _ _ (by
    rw [Shape.rowMajor_val_four, Shape.rowMajor_val_three]
    show (g.val * c + k.val) * d + l.val = ((i.val * b + j.val) * c + k.val) * d + l.val
    rw [hg])

end Cert.MergeAxes
-- ==== Proof.Relayout.lean ====
/-
  The flat form of the result, computed on keys and values whose two block coordinates were merged, and then split
  again, is the result.

  Merging `[64, 32, 256, 64] → [2048, 256, 64]` sends block `(b, w)` to block `n = b · 32 + w`; splitting
  `[2048, 128, 64] → [64, 32, 128, 64]` sends it back. The attention at `(n, s, e)` reads only block `n` of the merged keys
  and values, which is block `(b, w)` of the originals.
-/
import proofs.«143618_j61735859913075_1_alg».proof.Proof.Spec
import proofs.«143618_j61735859913075_1_alg».proof.Proof.LibMergeAxes

noncomputable section

namespace Cert.SparseAttn

open Idealize.ShloMosaic Idealize.ShloMosaic.ValueIdx

theorem split_Gflat_merge (Q : (⟨2, ![128, 64]⟩ : Shape).Idx → EReal) (K V : (⟨4, ![64, 32, 256, 64]⟩ : Shape).Idx → EReal)
    (h1 : (⟨4, ![64, 32, 256, 64]⟩ : Shape).ShapeCasts ⟨3, ![2048, 256, 64]⟩)
    (h2 : (⟨3, ![2048, 128, 64]⟩ : Shape).ShapeCasts ⟨4, ![64, 32, 128, 64]⟩) :
    shapeCast ⟨4, ![64, 32, 128, 64]⟩
        (Gflat Q (shapeCast ⟨3, ![2048, 256, 64]⟩ K h1) (shapeCast ⟨3, ![2048, 256, 64]⟩ V h1)) h2
      = G Q K V := by
  funext i
  obtain ⟨b, w, s, e, rfl⟩ : ∃ (b : Fin 64) (w : Fin 32) (s : Fin 128) (e : Fin 64), i = ix4 b w s e :=
    ⟨i 0, i 1, i 2, i 3, eq_ix4 i⟩
  have hn : b.val * 32 + w.val < 2048 := by have := b.isLt; have := w.isLt; omega
  rw [Cert.MergeAxes.shapeCast_split_apply _ h2 b w s e ⟨b.val * 32 + w.val, hn⟩ rfl]
  have eK : (fun (t : Fin 256) (d : Fin 64) =>
        shapeCast ⟨3, ![2048, 256, 64]⟩ K h1 (ix3 (⟨b.val * 32 + w.val, hn⟩ : Fin 2048) t d))
      = fun t d => K (ix4 b w t d) :=
    funext fun t => funext fun d => Cert.MergeAxes.shapeCast_merge_apply K h1 b w t d ⟨b.val * 32 + w.val, hn⟩ rfl
  have eV : (fun (t : Fin 256) (d : Fin 64) =>
        shapeCast ⟨3, ![2048, 256, 64]⟩ V h1 (ix3 (⟨b.val * 32 + w.val, hn⟩ : Fin 2048) t d))
      = fun t d => V (ix4 b w t d) :=
    funext fun t => funext fun d => Cert.MergeAxes.shapeCast_merge_apply V h1 b w t d ⟨b.val * 32 + w.val, hn⟩ rfl
  show attn (fun s d => Q (ix2 s d))
      (fun t d => shapeCast ⟨3, ![2048, 256, 64]⟩ K h1 (ix3 (⟨b.val * 32 + w.val, hn⟩ : Fin 2048) t d))
      (fun t d => shapeCast ⟨3, ![2048, 256, 64]⟩ V h1 (ix3 (⟨b.val * 32 + w.val, hn⟩ : Fin 2048) t d)) s e
    = attn (fun s d => Q (ix2 s d)) (fun t d => K (ix4 b w t d)) (fun t d => V (ix4 b w t d)) s e
  rw [eK, eV]

end Cert.SparseAttn

end
-- ==== Proof.KernelRun.lean ====
/-
  The idealized kernel's run, read: the returned buffer holds the specification of the three arguments.

  The region leaves `Gflat` of the query and the merged keys and values in the result array; the host line after it splits
  the merged block coordinate again; merging and splitting cancel, so the returned `[64, 32, 128, 64]` buffer holds `G` of the
  arguments' launch contents. The arguments end unchanged (the generated frame's own reading).
-/
import proofs.«143618_j61735859913075_1_alg».proof.Proof.Blocks
import proofs.«143618_j61735859913075_1_alg».proof.Proof.HostSide
import proofs.«143618_j61735859913075_1_alg».proof.Proof.Relayout

set_option maxRecDepth 16384

noncomputable section

namespace Cert.KernelIdeal.KernelValue

open Cert.KernelIdeal Cert.KernelIdeal.Gen Cert.SparseAttn
open Idealize.ShloMosaic Idealize.ShloMosaic.TcCoe Idealize.SL.Sem

variable (m : (ℓ : Loc nD τ sig) → Buf (Elt Ideal) ℓ) (ρ : Dev nD → PrngReg)

/-- What the lines after the region leave in the returned buffer. -/
theorem result_eq (c : Dev nD) :
    (Pipeline.afterTail₀ cfgs (dats m) 0 (V0 m) [hostOps1] c main_v3 : S64x32x128x64.Idx → EReal)
      = G (m ((c : Thread nD τ).loc main_arg0)) (m ((c : Thread nD τ).loc main_arg1)) (m ((c : Thread nD τ).loc main_arg2)) := by
  refine (HostSide.tail_eq m c).trans ?_
  rw [Blocks.final m c, V_main_arg0 m c, HostSide.V_keys m c, HostSide.V_values m c]
  exact split_Gflat_merge _ _ _ _ _

/-- THE RUN: every weakly fair execution terminates with the returned buffer at the specification of the arguments and
    the arguments unchanged. -/
theorem run : θ_run defs (onTc (τ := τ) (main (F := Ideal))) ⟨m, fun _ => 0, ρ⟩ (fun r => ∀ c : Dev nD,
      r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.Reference.lean ====
/-
  The reference, read stage by stage, computes the specification.

  At `(b, w, s, t)` its score is `∑ d, keys (b, w, t, d) * query (s, d)` — the specification's score with the factors
  in the other order. It masks by ADDING to the score the mask value where the score vanishes and zero elsewhere, which
  is the masked score on every extended real. The softmax is spelt as in the specification: the row's maximum started
  from the least word and compared with it once more, the shifted exponentials, their sum (a host sum starts from a zero
  that adds nothing), the quotient. The result is the weights times the values, block by block.
-/
import proofs.«143618_j61735859913075_1_alg».proof.Proof.Gen.ReferenceIdeal.Read
import proofs.«143618_j61735859913075_1_alg».proof.Proof.Spec
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.SparseAttn
open Idealize.ShloMosaic Idealize.ShloMosaic.ValueIdx Idealize.ShloMosaic.TcCoe Idealize.SL.Sem

variable (x0 : (⟨S128x64, .f32⟩ : BufTy).Contents (Elt Ideal)) (x1 x2 : (⟨S64x32x256x64, .f32⟩ : BufTy).Contents (Elt Ideal))

/-- The score of row `s` against position `t` of block `(b, w)`. -/
theorem raw_apply (b : Fin 64) (w : Fin 32) (s : Fin 128) (t : Fin 256) :
    val_main_v1 (F := Ideal) x0 x1 (ix4 b w s t) = ∑ d : Fin 64, x0 (ix2 s d) * x1 (ix4 b w t d) := by
  rw [val_main_v1_apply, val_main_v0_apply]
  refine Finset.sum_congr rfl fun d _ => ?_
  have el : lidx_main_v0 (idx_main_v1 (ix4 b w s t)) d = ix4 b w t d := funext fun a => Fin.ext (by
    match a with
    | ⟨0, _⟩ => rfl
    | ⟨1, _⟩ => rfl
    | ⟨2, _⟩ => rfl
    | ⟨3, _⟩ => rfl)
  have er : ridx_main_v0 (idx_main_v1 (ix4 b w s t)) d = ix2 s d := funext fun a => Fin.ext (by
    match a with
    | ⟨0, _⟩ => rfl
    | ⟨1, _⟩ => rfl)
  rw [el, er, mul_comm]

/-- The masked score. -/
theorem masked_apply (b : Fin 64) (w : Fin 32) (s : Fin 128) (t : Fin 256) :
    val_main_v6 (F := Ideal) x0 x1 (ix4 b w s t)
      = scores (fun s d => x0 (ix2 s d)) (fun t d => x1 (ix4 b w t d)) s t := by
  rw [val_main_v6_apply, val_main_v5_apply, val_main_v4_apply, val_main_v3_apply, val_main_v2_apply, val_main_cst_apply,
    val_main_call0_v0_apply, val_main_cst_0_apply, val_main_call0_v1_apply, val_main_cst_1_apply, raw_apply]
  exact masked_of_add _

/-- The number a row is shifted by. -/
theorem top_apply (b : Fin 64) (w : Fin 32) (s : Fin 128) :
    val_main_v9 (F := Ideal) x0 x1 (ix3 b w s)
      = rowTop (fun t : Fin 256 => val_main_v6 (F := Ideal) x0 x1 (ix4 b w s t)) := by
  rw [val_main_v9_apply, val_main_v8_apply, val_main_cst_3_apply]
  unfold val_main_v7 rowTop
  have h : S64x32x128x256.Reduces [3] S64x32x128 := by decide
  have e := Host.reduce_eq_fold_single (FloatOps.maximumf (F := Ideal) (φ := .f32)) (val_main_v6 (F := Ideal) x0 x1)
    (val_main_cst_2 (F := Ideal)) reducesTo_S64x32x128x256_S64x32x128_d3 h h_S_ (ix3 b w s)
  have ef : (val_main_v6 (F := Ideal) x0 x1 ∘ h.lift (ix3 b w s))
      = fun t => val_main_v6 (F := Ideal) x0 x1 (ix4 b w s t) :=
    funext fun k => congrArg (val_main_v6 (F := Ideal) x0 x1) (funext fun ax => Fin.ext (by
      match ax with
      | ⟨0, _⟩ => rfl
      | ⟨1, _⟩ => rfl
      | ⟨2, _⟩ => rfl
      | ⟨3, _⟩ => rfl))
  rw [ef] at e
  exact congrArg (max ninfW) e

/-- The exponential of a shifted masked score. -/
theorem exp_apply (b : Fin 64) (w : Fin 32) (s : Fin 128) (t : Fin 256) :
    val_main_v13 (F := Ideal) x0 x1 (ix4 b w s t)
      = Ideal.exp (val_main_v6 (F := Ideal) x0 x1 (ix4 b w s t)
          - rowTop (fun t' : Fin 256 => val_main_v6 (F := Ideal) x0 x1 (ix4 b w s t'))) := by
  rw [val_main_v13_apply, val_main_v12_apply, val_main_v11_apply, val_main_v10_apply]
  have e : idx_main_v10 (idx_main_v11 (ix4 b w s t)) = ix3 b w s := funext fun a => Fin.ext (by
    match a with
    | ⟨0, _⟩ => rfl
    | ⟨1, _⟩ => rfl
    | ⟨2, _⟩ => rfl)
  rw [e, top_apply]
  rfl

/-- The softmax weight. -/
theorem weight_apply (b : Fin 64) (w : Fin 32) (s : Fin 128) (t : Fin 256) :
    val_main_v17 (F := Ideal) x0 x1 (ix4 b w s t)
      = softRow (fun t' : Fin 256 => val_main_v6 (F := Ideal) x0 x1 (ix4 b w s t')) t := by
  rw [val_main_v17_apply, val_main_v16_apply, val_main_v15_apply, val_main_v14_apply, val_main_cst_4_apply]
  have e : idx_main_v15 (idx_main_v16 (ix4 b w s t)) = ix3 b w s := funext fun a => Fin.ext (by
    match a with
    | ⟨0, _⟩ => rfl
    | ⟨1, _⟩ => rfl
    | ⟨2, _⟩ => rfl)
  rw [e, exp_apply]
  unfold softRow
  show Ideal.div _ (Ideal.ofBits .f32 0x00000000#32 + ∑ k : Fin 256, val_main_v13 (F := Ideal) x0 x1 (idx_main_v14 (ix3 b w s) k)) = _
  rw [Ideal.ofBits_zero_f32, zero_add]
  refine congrArg (Ideal.div _) (Finset.sum_congr rfl fun k _ => ?_)
  have e' : idx_main_v14 (ix3 b w s) k = ix4 b w s k := funext fun a => Fin.ext (by
    match a with
    | ⟨0, _⟩ => rfl
    | ⟨1, _⟩ => rfl
    | ⟨2, _⟩ => rfl
    | ⟨3, _⟩ => rfl)
  rw [e', exp_apply]

/-- THE REFERENCE'S RESULT is the specification of its three arguments. -/
theorem result_eq : val_main_v18 (F := Ideal) x0 x1 x2 = G x0 x1 x2 := by
  funext i
  obtain ⟨b, w, s, e, rfl⟩ : ∃ (b : Fin 64) (w : Fin 32) (s : Fin 128) (e : Fin 64), i = ix4 b w s e :=
    ⟨i 0, i 1, i 2, i 3, eq_ix4 i⟩
  rw [val_main_v18_apply]
  show _ = attn (fun s d => x0 (ix2 s d)) (fun t d => x1 (ix4 b w t d)) (fun t e => x2 (ix4 b w t e)) s e
  unfold attn
  refine Finset.sum_congr rfl fun k _ => ?_
  have el : lidx_main_v18 (ix4 b w s e) k = ix4 b w s k := funext fun a => Fin.ext (by
    match a with
    | ⟨0, _⟩ => rfl
    | ⟨1, _⟩ => rfl
    | ⟨2, _⟩ => rfl
    | ⟨3, _⟩ => rfl)
  have er : ridx_main_v18 (ix4 b w s e) k = ix4 b w k e := funext fun a => Fin.ext (by
    match a with
    | ⟨0, _⟩ => rfl
    | ⟨1, _⟩ => rfl
    | ⟨2, _⟩ => rfl
    | ⟨3, _⟩ => rfl)
  rw [el, er, weight_apply]
  have hrow : (fun t' : Fin 256 => val_main_v6 (F := Ideal) x0 x1 (ix4 b w s t'))
      = scores (fun s d => x0 (ix2 s d)) (fun t d => x1 (ix4 b w t d)) s :=
    funext fun t' => masked_apply x0 x1 b w s t'
  rw [hrow]

/-- So the run's result term is the specification of the launch contents of the three arguments. -/
theorem res_eq (m : (ℓ : Loc nD τ sig) → Buf (Elt Ideal) ℓ) (c : Dev nD) :
    Cert.ReferenceIdeal.Value.res_main_v18 m c
      = G (m ((c.tc : Thread nD τ).loc main_arg0)) (m ((c.tc : Thread nD τ).loc main_arg1)) (m ((c.tc : Thread nD τ).loc main_arg2)) :=
  (val_main_v18_eq m c).trans (result_eq _ _ _)

end Cert.ReferenceIdeal.RefValue

end
-- ==== Proof.lean ====
/-
  Masked softmax attention of one query matrix against 64 × 32 blocks of keys and values: the kernel against its
  reference, on the extended reals.

  The kernel merges the two block coordinates of the keys and values ([64, 32, 256, 64] → [2048, 256, 64]), runs a grid of 64
  points each handling 32 blocks — scores by a product of rows against rows, exact zeros masked by a selection, a softmax
  along the row, the weights times the value block — and splits the block coordinate of the result again. The reference
  computes the same scores by one contraction and a transposition (with the factors in the other order), masks by adding
  a mask array, takes the same softmax and contracts with the values.

  Both are ONE function of the three arguments, `Cert.SparseAttn.G` (Proof/Spec.lean): the kernel's side is read off the
  frame run block by block (Proof/Payload.lean, Blocks.lean, HostSide.lean, KernelRun.lean), the reference's off its
  generated run stage by stage (Proof/Reference.lean). What joins them is commutativity of the product, `0 + c = c` and
  `p + 0 = p`, none of which asks a value to be finite: the precondition is never opened. A change of float format is the
  identity here, and the kernel's products into a zero accumulator are plain sums.

  The three frames are the generated ones (the reference's is its run with the result dropped); the idealization rewrote
  nothing, so `preserves` is trivial.
-/
import proofs.«143618_j61735859913075_1_alg».proof.Defs
import proofs.«143618_j61735859913075_1_alg».proof.Proof.Gen.Kernel
import proofs.«143618_j61735859913075_1_alg».proof.Proof.Gen.Kernel.Skeleton
import proofs.«143618_j61735859913075_1_alg».proof.Proof.Gen.Kernel.Launch
import proofs.«143618_j61735859913075_1_alg».proof.Proof.Gen.Kernel.Points
import proofs.«143618_j61735859913075_1_alg».proof.Proof.Gen.Kernel.Frame
import proofs.«143618_j61735859913075_1_alg».proof.Proof.Gen.KernelIdeal
import proofs.«143618_j61735859913075_1_alg».proof.Proof.Gen.KernelIdeal.Skeleton
import proofs.«143618_j61735859913075_1_alg».proof.Proof.Gen.KernelIdeal.Launch
import proofs.«143618_j61735859913075_1_alg».proof.Proof.Gen.KernelIdeal.Points
import proofs.«143618_j61735859913075_1_alg».proof.Proof.Gen.KernelIdeal.Frame
import proofs.«143618_j61735859913075_1_alg».proof.Proof.Gen.ReferenceIdeal
import proofs.«143618_j61735859913075_1_alg».proof.Proof.Gen.Pre_finite_inputs
import proofs.«143618_j61735859913075_1_alg».proof.Proof.Gen.ReferenceIdeal.Run
import proofs.«143618_j61735859913075_1_alg».proof.Proof.Gen.ReferenceIdeal.Read
import proofs.«143618_j61735859913075_1_alg».proof.Proof.KernelRun
import proofs.«143618_j61735859913075_1_alg».proof.Proof.Reference
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the returned buffer at the attention `G` of the
    arguments: the kernel by its run read block by block, the reference by its run read stage by stage. -/
theorem algebraic : Cert.algebraic_KernelIdeal_ReferenceIdeal := by
  intro m ρ m' ρ' _ hagree
  refine ⟨fun c => Cert.SparseAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
